-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x577x1024 : Shape := ⟨3, ![32, 577, 1024]⟩
abbrev S2560x1024 : Shape := ⟨2, ![2560, 1024]⟩
abbrev S2560 : Shape := ⟨1, ![2560]⟩
abbrev S_ : Shape := ⟨0, ![]⟩

class Facts : Prop where
  bcast_S_S32x577x1024 : S_.BroadcastsInDim S32x577x1024 (![] : Fin 0 → Fin S32x577x1024.rank)
  reducesTo_S32x577x1024_S_d0_1_2 : S32x577x1024.ReducesTo [0, 1, 2] S_
  h_S_ : 0 < S_.numel
  bcast_S_S2560 : S_.BroadcastsInDim S2560 (![] : Fin 0 → Fin S2560.rank)
  reducesTo_S2560_S_d0 : S2560.ReducesTo [0] S_

variable [Facts]

def fn {F : FTy → Type} [FloatOps F] (main_arg0 : FVec F S32x577x1024 .f32) (main_arg1 : IVec S2560x1024 32) (main_arg2 : FVec F S2560 .f32) (main_arg3 : FVec F S2560 .f32) : IVec S_ 1 :=
  let main_v0 : FVec F S32x577x1024 .f32 := Host.absf main_arg0
  let main_cst : FVec F S_ .f32 := constant S_ .f32 0x7F800000#32
  let main_v1 : FVec F S32x577x1024 .f32 := broadcastInDim S32x577x1024 ![] bcast_S_S32x577x1024 main_cst
  let main_v2 : IVec S32x577x1024 1 := cmpf .olt main_v0 main_v1
  let main_c : IVec S_ 1 := constantI S_ 1 1#1
  let main_v3 : IVec S_ 1 := (fun x v => Host.reduce IntOp.andi x v reducesTo_S32x577x1024_S_d0_1_2 h_S_) main_v2 main_c
  let main_v4 : FVec F S2560 .f32 := Host.absf main_arg2
  let main_cst_0 : FVec F S_ .f32 := constant S_ .f32 0x7F800000#32
  let main_v5 : FVec F S2560 .f32 := broadcastInDim S2560 ![] bcast_S_S2560 main_cst_0
  let main_v6 : IVec S2560 1 := cmpf .olt main_v4 main_v5
  let main_c_1 : IVec S_ 1 := constantI S_ 1 1#1
  let main_v7 : IVec S_ 1 := (fun x v => Host.reduce IntOp.andi x v reducesTo_S2560_S_d0 h_S_) main_v6 main_c_1
  let main_v8 : IVec S_ 1 := andi main_v3 main_v7
  let main_v9 : FVec F S2560 .f32 := Host.absf main_arg3
  let main_cst_2 : FVec F S_ .f32 := constant S_ .f32 0x7F800000#32
  let main_v10 : FVec F S2560 .f32 := broadcastInDim S2560 ![] bcast_S_S2560 main_cst_2
  let main_v11 : IVec S2560 1 := cmpf .olt main_v9 main_v10
  let main_c_3 : IVec S_ 1 := constantI S_ 1 1#1
  let main_v12 : IVec S_ 1 := (fun x v => Host.reduce IntOp.andi x v reducesTo_S2560_S_d0 h_S_) main_v11 main_c_3
  let main_v13 : IVec S_ 1 := andi main_v8 main_v12
  main_v13
-- ==== Kernel.lean ====
abbrev S32x577x1024 : Shape := ⟨3, ![32, 577, 1024]⟩
abbrev S2560x1024 : Shape := ⟨2, ![2560, 1024]⟩
abbrev S2560 : Shape := ⟨1, ![2560]⟩
abbrev S18464x1024 : Shape := ⟨2, ![18464, 1024]⟩
abbrev S1024x2560 : Shape := ⟨2, ![1024, 2560]⟩
abbrev S1x2560 : Shape := ⟨2, ![1, 2560]⟩
abbrev S18464x2560 : Shape := ⟨2, ![18464, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S32x577x2560 : Shape := ⟨3, ![32, 577, 2560]⟩

abbrev nBuf : Space → Nat
  | .hbm => 11
  | .vmem => 7
  | .smem => 0
  | _ => 0

abbrev bufTy : (tb : Table) → Fin (tcTables nBuf tb) → BufTy
  | .hbm, ⟨0, _⟩ => ⟨S32x577x1024, .f32⟩
  | .hbm, ⟨1, _⟩ => ⟨S2560x1024, .i32⟩
  | .hbm, ⟨2, _⟩ => ⟨S2560, .f32⟩
  | .hbm, ⟨3, _⟩ => ⟨S2560, .f32⟩
  | .hbm, ⟨4, _⟩ => ⟨S18464x1024, .f32⟩
  | .hbm, ⟨5, _⟩ => ⟨S2560x1024, .bf16⟩
  | .hbm, ⟨6, _⟩ => ⟨S1024x2560, .bf16⟩
  | .hbm, ⟨7, _⟩ => ⟨S1x2560, .f32⟩
  | .hbm, ⟨8, _⟩ => ⟨S1x2560, .f32⟩
  | .hbm, ⟨9, _⟩ => ⟨S18464x2560, .f32⟩
  | .hbm, ⟨10, _⟩ => ⟨S32x577x2560, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1x2560, .f32⟩
  | .local _ .vmem, ⟨4, _⟩ => ⟨S1x2560, .f32⟩
  | .local _ .vmem, ⟨5, _⟩ => ⟨S512x2560, .f32⟩
  | .local _ .vmem, ⟨6, _⟩ => ⟨S512x2560, .f32⟩
  | _, _ => ⟨S32x577x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x577x1024_S18464x1024 : S32x577x1024.ShapeCasts S18464x1024
  transposes_S2560x1024_S1024x2560_1_0 : S2560x1024.Transposes [1, 0] S1024x2560
  shapeCasts_S2560_S1x2560 : S2560.ShapeCasts S1x2560
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  inb_S1024x2560_S1024x2560_0_0 : ∀ a, (![0, 0] : Fin 2 → Nat) a + S1024x2560.size a ≤ S1024x2560.size a
  h_S1024x2560 : 0 < S1024x2560.numel
  shapeCasts_S1024x2560_S1024x2560 : S1024x2560.ShapeCasts S1024x2560
  broadcasts_S512x1_S512x2560 : S512x1.Broadcasts S512x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S512x2560 : S1x2560.Broadcasts S512x2560
  inb_S512x2560_S512x2560_0_0 : ∀ a, (![0, 0] : Fin 2 → Nat) a + S512x2560.size a ≤ S512x2560.size a
  h_S512x2560 : 0 < S512x2560.numel
  shapeCasts_S18464x2560_S32x577x2560 : S18464x2560.ShapeCasts S32x577x2560
  dot_S512x1024_S1024x2560_S512x2560_1_0_0_1_n_n_wf : DotDims.WF S512x1024 S1024x2560 S512x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1024.size a < S18464x1024.size a
  hwx0_0 : ∀ i : grid0.Coords, EltTy.bits .f32 = 32 ∨ (Rect.unit (s := S18464x1024) (fun a => cc0_transform_0 i a * S512x1024.size a) (fun a => (Pipeline.Clip.of (cc0_transform_0 i a) (S512x1024.size a) (S18464x1024.size a)).extent (S512x1024.size a)) fun a => Pipeline.Clip.inb (Pipeline.Clip.ok_of (hstart0_0 i a))).WholeWords (EltTy.packing .f32)
  hwxs0_0 : ∀ i : grid0.Coords, EltTy.bits .f32 = 32 ∨ (Rect.unit (s := S512x1024) (fun _ => 0) (fun a => (Pipeline.Clip.of (cc0_transform_0 i a) (S512x1024.size a) (S18464x1024.size a)).extent (S512x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2560.size a ≤ S1024x2560.size a
  hwx0_1 : ∀ i : grid0.Coords, EltTy.bits .bf16 = 32 ∨ (Rect.block (s := S1024x2560) S1024x2560.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2560.size a ≤ S1x2560.size a
  hwx0_2 : ∀ i : grid0.Coords, EltTy.bits .f32 = 32 ∨ (Rect.block (s := S1x2560) S1x2560.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2560.size a ≤ S1x2560.size a
  hwx0_3 : ∀ i : grid0.Coords, EltTy.bits .f32 = 32 ∨ (Rect.block (s := S1x2560) S1x2560.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x2560.size a < S18464x2560.size a
  hwx0_4 : ∀ i : grid0.Coords, EltTy.bits .f32 = 32 ∨ (Rect.unit (s := S18464x2560) (fun a => cc0_transform_4 i a * S512x2560.size a) (fun a => (Pipeline.Clip.of (cc0_transform_4 i a) (S512x2560.size a) (S18464x2560.size a)).extent (S512x2560.size a)) fun a => Pipeline.Clip.inb (Pipeline.Clip.ok_of (hstart0_4 i a))).WholeWords (EltTy.packing .f32)
  hwxs0_4 : ∀ i : grid0.Coords, EltTy.bits .f32 = 32 ∨ (Rect.unit (s := S512x2560) (fun _ => 0) (fun a => (Pipeline.Clip.of (cc0_transform_4 i a) (S512x2560.size a) (S18464x2560.size a)).extent (S512x2560.size a)) fun a => (Nat.zero_add _).trans_le (Pipeline.Clip.extent_le (Pipeline.Clip.ok_of (hstart0_4 i a)))).WholeWords (EltTy.packing .f32)

variable [Facts₀]

def dot_S512x1024_S1024x2560_S512x2560_1_0_0_1_n_n : DotDims S512x1024 S1024x2560 S512x2560 where
  lhsContracting := [1]
  rhsContracting := [0]
  lhsNonContracting := [0]
  rhsNonContracting := [1]
  lhsBatch := []
  rhsBatch := []
  wf := dot_S512x1024_S1024x2560_S512x2560_1_0_0_1_n_n_wf

abbrev win0_0 : Pipeline.Window sig grid0 :=
  Pipeline.Window.ofSpecClip (Memref.whole main_v0) S512x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S1024x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2560.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v5) S512x2560.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x577x1024 : Shape := ⟨3, ![32, 577, 1024]⟩
abbrev S2560x1024 : Shape := ⟨2, ![2560, 1024]⟩
abbrev S2560 : Shape := ⟨1, ![2560]⟩
abbrev S_ : Shape := ⟨0, ![]⟩
abbrev S32x577 : Shape := ⟨2, ![32, 577]⟩
abbrev S32x577x1 : Shape := ⟨3, ![32, 577, 1]⟩
abbrev S32x577x2560 : Shape := ⟨3, ![32, 577, 2560]⟩
abbrev S1x1x2560 : Shape := ⟨3, ![1, 1, 2560]⟩

abbrev nBuf : Space → Nat
  | .hbm => 29
  | .vmem => 0
  | .smem => 0
  | _ => 0

abbrev bufTy : (tb : Table) → Fin (tcTables nBuf tb) → BufTy
  | .hbm, ⟨0, _⟩ => ⟨S32x577x1024, .f32⟩
  | .hbm, ⟨1, _⟩ => ⟨S2560x1024, .i32⟩
  | .hbm, ⟨2, _⟩ => ⟨S2560, .f32⟩
  | .hbm, ⟨3, _⟩ => ⟨S2560, .f32⟩
  | .hbm, ⟨4, _⟩ => ⟨S32x577x1024, .f32⟩
  | .hbm, ⟨5, _⟩ => ⟨S_, .f32⟩
  | .hbm, ⟨6, _⟩ => ⟨S32x577, .f32⟩
  | .hbm, ⟨7, _⟩ => ⟨S32x577x1, .f32⟩
  | .hbm, ⟨8, _⟩ => ⟨S_, .f32⟩
  | .hbm, ⟨9, _⟩ => ⟨S32x577x1, .f32⟩
  | .hbm, ⟨10, _⟩ => ⟨S32x577x1, .f32⟩
  | .hbm, ⟨11, _⟩ => ⟨S_, .f32⟩
  | .hbm, ⟨12, _⟩ => ⟨S32x577x1, .f32⟩
  | .hbm, ⟨13, _⟩ => ⟨S32x577x1, .f32⟩
  | .hbm, ⟨14, _⟩ => ⟨S32x577x1024, .f32⟩
  | .hbm, ⟨15, _⟩ => ⟨S32x577x1024, .f32⟩
  | .hbm, ⟨16, _⟩ => ⟨S32x577x1024, .f32⟩
  | .hbm, ⟨17, _⟩ => ⟨S32x577x1024, .f32⟩
  | .hbm, ⟨18, _⟩ => ⟨S32x577x1024, .f32⟩
  | .hbm, ⟨19, _⟩ => ⟨S2560x1024, .f32⟩
  | .hbm, ⟨20, _⟩ => ⟨S32x577x2560, .f32⟩
  | .hbm, ⟨21, _⟩ => ⟨S32x577x2560, .f32⟩
  | .hbm, ⟨22, _⟩ => ⟨S32x577x2560, .f32⟩
  | .hbm, ⟨23, _⟩ => ⟨S1x1x2560, .f32⟩
  | .hbm, ⟨24, _⟩ => ⟨S32x577x2560, .f32⟩
  | .hbm, ⟨25, _⟩ => ⟨S32x577x2560, .f32⟩
  | .hbm, ⟨26, _⟩ => ⟨S1x1x2560, .f32⟩
  | .hbm, ⟨27, _⟩ => ⟨S32x577x2560, .f32⟩
  | .hbm, ⟨28, _⟩ => ⟨S32x577x2560, .f32⟩
  | _, _ => ⟨S32x577x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S32x577x1024_S32x577_d2 : S32x577x1024.ReducesTo [2] S32x577
  h_S_ : 0 < S_.numel
  bcast_S32x577_S32x577x1_0_1 : S32x577.BroadcastsInDim S32x577x1 (![0, 1] : Fin 2 → Fin S32x577x1.rank)
  bcast_S_S32x577x1 : S_.BroadcastsInDim S32x577x1 (![] : Fin 0 → Fin S32x577x1.rank)
  bcast_S32x577x1_S32x577x1024_0_1_2 : S32x577x1.BroadcastsInDim S32x577x1024 (![0, 1, 2] : Fin 3 → Fin S32x577x1024.rank)
  bcast_S32x577x1_S32x577x2560_0_1_2 : S32x577x1.BroadcastsInDim S32x577x2560 (![0, 1, 2] : Fin 3 → Fin S32x577x2560.rank)
  bcast_S2560_S1x1x2560_2 : S2560.BroadcastsInDim S1x1x2560 (![2] : Fin 1 → Fin S1x1x2560.rank)
  bcast_S1x1x2560_S32x577x2560_0_1_2 : S1x1x2560.BroadcastsInDim S32x577x2560 (![0, 1, 2] : Fin 3 → Fin S32x577x2560.rank)
  dot_S32x577x1024_S2560x1024_S32x577x2560_2_1_01_0_n_n_wf : DotDims.WF S32x577x1024 S2560x1024 S32x577x2560 [2] [1] [0, 1] [0] [] []

variable [Facts₀]

def dot_S32x577x1024_S2560x1024_S32x577x2560_2_1_01_0_n_n : DotDims S32x577x1024 S2560x1024 S32x577x2560 where
  lhsContracting := [2]
  rhsContracting := [1]
  lhsNonContracting := [0, 1]
  rhsNonContracting := [0]
  lhsBatch := []
  rhsBatch := []
  wf := dot_S32x577x1024_S2560x1024_S32x577x2560_2_1_01_0_n_n_wf

class Facts : Prop extends Facts₀ where

variable [Facts]
-- ==== Proof.KernelBody.lean ====
/-
  The kernel body of the quantized linear layer on one block of rows, and what the pipeline is owed of it.

  One grid point handles 512 rows of the flattened activations: the body loads the 512×1024 block of rows, the whole
  1024×2560 weight, the 1×2560 scale and bias rows, and stores ONE 512×2560 block: every row's absolute maximum,
  the row's scale, the rounded quotients, their product with the weight, rescaled and shifted. There are
  18464 = 36·512 + 32 rows, so the last block of rows and the last output block overhang their arrays by 480
  rows: the fetch fills only the 32 rows inside the array and leaves the rest of the buffer at words nothing
  names, and the write-back writes only the first 32 rows of the output buffer.

  Here: the body's triple on any five whole buffers (the four inputs unchanged, the output buffer at the stored
  value as a function of the four loaded values); the proof data of the pipeline with the output block a
  parameter; what each input buffer holds when the body runs; and the obligation in the form that says nothing
  of the output buffer, with the run and the frame that follow from it: the arguments end as they began.
-/
import proofs.«172809_j14302241096002_2_alg».proof.Proof.Gen.Kernel.Frame
import proofs.«172809_j14302241096002_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S512x1024 := Rect.unit (s := S512x1024) ![0, 0] S512x1024.size inb_S512x1024_S512x1024_0_0
abbrev rWeight : Rect S1024x2560 := Rect.unit (s := S1024x2560) ![0, 0] S1024x2560.size inb_S1024x2560_S1024x2560_0_0
abbrev rLane : Rect S1x2560 := Rect.unit (s := S1x2560) ![0, 0] S1x2560.size inb_S1x2560_S1x2560_0_0
abbrev rOut : Rect S512x2560 := Rect.unit (s := S512x2560) ![0, 0] S512x2560.size inb_S512x2560_S512x2560_0_0

/-- What the output buffer holds after the body, from what the four input buffers hold: the one store's value,
    laid over the whole buffer. -/
def stored (x : Vec F S512x1024 .f32) (w : Vec F S1024x2560 .bf16) (s : Vec F S1x2560 .f32) (b : Vec F S1x2560 .f32) :
    Vec F S512x2560 .f32 :=
  View.canon [⟨rOut, k0_pay1 (View.ld x rRows) (View.ld w rWeight) (View.ld s rLane) (View.ld b rLane)⟩]

/-- The one store covers the output buffer. -/
theorem stored_covers (p0 : Vec F S512x2560 .f32) (y : S512x2560.Idx) :
    ∃ pc ∈ ([⟨rOut, p0⟩] : List (View.Piece (Elt F) S512x2560 .f32)), y ∈ pc.1.set :=
  View.cover_of_tiled [⟨rOut, p0⟩] S512x2560.size (by rfl) y

/-! ## The body's triple -/

set_option maxHeartbeats 4000000 in
/-- On five whole buffers, the inputs at `x`, `w`, `s`, `b` and the output at anything, the body runs to the
    continuation with the inputs as they were and the output at `stored x w s b`: four loads, a dead load of the
    output buffer, one whole store. -/
theorem sound_kernel (c : Dev nD) (E : Set ℕ) (i : grid0.Coords)
    (arg1 : Memref sig .tc .vmem S512x1024 .f32) (harg1 : arg1.IsWhole)
    (arg2 : Memref sig .tc .vmem S1024x2560 .bf16) (harg2 : arg2.IsWhole)
    (arg3 : Memref sig .tc .vmem S1x2560 .f32) (harg3 : arg3.IsWhole)
    (arg4 : Memref sig .tc .vmem S1x2560 .f32) (harg4 : arg4.IsWhole)
    (arg5 : Memref sig .tc .vmem S512x2560 .f32) (harg5 : arg5.IsWhole)
    (x : Vec F S512x1024 .f32) (w : Vec F S1024x2560 .bf16) (s : Vec F S1x2560 .f32) (b : Vec F S1x2560 .f32)
    (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare b
        ∗ (∃ d, owns (c : Thread nD τ) arg5 fullShare d)
        ∗ (iprop(owns (c : Thread nD τ) arg1 fullShare x ∗ owns (c : Thread nD τ) arg2 fullShare w
            ∗ owns (c : Thread nD τ) arg3 fullShare s ∗ owns (c : Thread nD τ) arg4 fullShare b
            ∗ owns (c : Thread nD τ) arg5 fullShare (stored x w s b)) -∗ K ⟨⟩))
      ⊢ wp frame (wpE (defs₀ (F := F)) Variants.none c none) E
          (cc0__kernel i arg1 harg1 arg2 harg2 arg3 harg3 arg4 harg4 arg5 harg5) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the one pipeline on core `c`, the output buffer's contents after the body (`out`) a
    parameter: the arrays as the region finds them; after the body the block of rows as fetched over a buffer of
    zero words, the weight, scale and bias blocks as they are, and `out`; the class's invariant; nothing owed. -/
def dats (out : Dev nD → Fin cfg0.N → S512x2560.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => out c t
  Φ _ := Pipeline.ΦA spec0 c
  q _ := fullShare
  owed _ := 0

variable (out : Dev nD → Fin cfg0.N → S512x2560.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t
    = win0_0.fill (grid0.coords t) (fun _ => Scalar.ofBits .f32 0#32) (iblk m c 0 t) := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]

/-- The block of rows is fetched at every point: the buffer holds the rows inside the array, and on the rest
    whatever it held (`d`). -/
theorem before0_0 (c : Dev nD) (t : Fin cfg0.N) (d) :
    (dats m out 0 c).before 0 t d = win0_0.fill (grid0.coords t) d (iblk m c 0 t) := by
  rw [Dat.before_fetched _ 0 t (fetch0_0 t) d]
  unfold Dat.fetched Dat.blockOf iblk
  rw [A_eq]
/-- The weight, scale and bias buffers hold their one block at every point. -/
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d
theorem before0_3 (c : Dev nD) (t : Fin cfg0.N) (d) : (dats m out 0 c).before 3 t d = iblk m c 3 t :=
  before0_3_of m (dats m out 0 c) (A_eq m out c 3) (after0_3 m out c) t d

/-! ## The obligation that says nothing of the output buffer -/

/-- The output window, and only it, is forgotten. -/
abbrev forgetOut : Fin cfg0.W → Bool :=
  fun | 0 => false | 1 => false | 2 => false | 3 => false | 4 => true | ⟨_ + 5, h⟩ => absurd h (Nat.not_lt.2 (Nat.le_add_left _ _))

/-- What the body is called with at point `t` when the output buffer is forgotten, -/
def preForget (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ X, owns (c : Thread nD τ) (st0_4 t) fullShare X))

/-- and what it hands back: the block of rows stated on the rows inside the array only. -/
def postForget (c : Dev nD) (t : Fin cfg0.N) : sProp 𝕄 :=
  iprop((dats m out 0 c).Φ t.succ ∗ (dats m out 0 c).owesAt () t.succ
    ∗ (∃ d, owns (c : Thread nD τ) (st0_0 t) fullShare
        ((cfg0.win 0).fill (cfg0.grid.coords t) d ((cfg0.win 0).cut (cfg0.grid.coords t) ((dats m out 0 c).after 0 t))))
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ (∃ X, owns (c : Thread nD τ) (st0_4 t) fullShare X))

theorem sound_forget (c : Dev nD) (t : Fin cfg0.N) :
    preForget m out c t ⊢ wp frame (wpE (defs₀ (F := F)) Variants.none c none) Set.univ (bodyAt0 t) (fun _ => postForget m out c t) := by
  unfold preForget postForget bodyAt0
  simp only [before0_0, before0_1, before0_2, before0_3]
  rw [show (dats m out 0 c).Φ t.succ = (dats m out 0 c).Φ t.castSucc from rfl,
    show (dats m out 0 c).owesAt () t.succ = (dats m out 0 c).owesAt () t.castSucc from rfl,
    after0_0, after0_1, after0_2, after0_3]
  iintro ⟨HΦ, Ho, ⟨%d0, H0⟩, ⟨%d1, H1⟩, ⟨%d2, H2⟩, ⟨%d3, H3⟩, ⟨%X4, H4⟩⟩
  iapply (sound_kernel c Set.univ _ _ _ _ _ _ _ _ _ _ _ (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show (cfg0.win 0).cut (cfg0.grid.coords t) (win0_0.fill (grid0.coords t) (fun _ => Scalar.ofBits .f32 0#32) (iblk m c 0 t))
        = iblk m c 0 t from win0_0.cut_fill _ _ _]
    iexact H0
  isplitl [H1]; · iexact H1
  isplitl [H2]; · iexact H2
  isplitl [H3]; · iexact H3
  iexists _; iexact H4

theorem obligation_forget (c : Dev nD) :
    BodyObligationLoose (dats (F := F) m out 0 c) (defs₀ (F := F)) Variants.none () Set.univ forgetOut := fun t => by
  rw [bigSep_W0, bigSep_W0]
  exact sound_forget m out c t

/-! ## The run and the frame -/

/-- The one buffer the host line after the region writes: the reshaped result. -/
abbrev tailWrites : Finset (Ref sig .tc) := {main_v6}

theorem tail_writes : ∀ ops ∈ ([hostOps1] : List (List (HloOp τ sig (Elt F)))), ∀ op ∈ ops,
    ∀ b : Ref sig .tc, Proc.devRef (τ := τ) .tc b ∈ op.writes → b ∈ tailWrites := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) _ hb)

set_option backward.isDefEq.respectTransparency.types false in
/-- Every weakly fair execution of @main terminates, and every buffer that is neither a window's array nor the
    reshaped result ends as the region found it. -/
theorem run_forget : θ_run defs (onTc (τ := τ) (main (F := F))) (s₀ m ρ)
    (Pipeline.RDat.FramePostR cfg0 (fun c => (dats m out 0 c).toRForget forgetOut) tailWrites
      (fun c b => V0 m c (Proc.devRef .tc b))) :=
  Pipeline.RDat.θ_run_frame_around_T cfgs (0 : Fin 1) launch0 defs₀ Variants.none
    (fun c => (dats m out 0 c).toRForget forgetOut) tailWrites m ρ main
    (hbody := fun c => (obligation_forget m out c).toRForget)
    (hshare := fun c => (dats m out 0 c).share_full fun _ => rfl) (howed := fun _ _ => rfl)
    (V₀ := V0 m) (opss := [hostOps1]) (hsub := sfx_sub) (hfresh := sfx_fresh) (hkeep := sfx_keeps)
    (hT := tail_writes) (hmain := hmain m Variants.none) (hA := A_eq m out) (hΦ := fun _ _ => rfl)

/-- THE FRAME: the four arguments are no window's array and are not written after the region, so they end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_forget m ρ (fun _ _ _ => Scalar.ofBits .f32 0#32))

end Cert.Kernel.Body

end
-- ==== Proof.KernelIdealBody.lean ====
/-
  The kernel body of the quantized linear layer on one block of rows, and what the pipeline is owed of it.

  One grid point handles 512 rows of the flattened activations: the body loads the 512×1024 block of rows, the whole
  1024×2560 weight, the 1×2560 scale and bias rows, and stores ONE 512×2560 block: every row's absolute maximum,
  the row's scale, the rounded quotients, their product with the weight, rescaled and shifted. There are
  18464 = 36·512 + 32 rows, so the last block of rows and the last output block overhang their arrays by 480
  rows: the fetch fills only the 32 rows inside the array and leaves the rest of the buffer at words nothing
  names, and the write-back writes only the first 32 rows of the output buffer.

  Here: the body's triple on any five whole buffers (the four inputs unchanged, the output buffer at the stored
  value as a function of the four loaded values); the proof data of the pipeline with the output block a
  parameter; what each input buffer holds when the body runs; and the obligation in the form that says nothing
  of the output buffer, with the run and the frame that follow from it: the arguments end as they began.
-/
import proofs.«172809_j14302241096002_2_alg».proof.Proof.Gen.KernelIdeal.Frame
import proofs.«172809_j14302241096002_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S512x1024 := Rect.unit (s := S512x1024) ![0, 0] S512x1024.size inb_S512x1024_S512x1024_0_0
abbrev rWeight : Rect S1024x2560 := Rect.unit (s := S1024x2560) ![0, 0] S1024x2560.size inb_S1024x2560_S1024x2560_0_0
abbrev rLane : Rect S1x2560 := Rect.unit (s := S1x2560) ![0, 0] S1x2560.size inb_S1x2560_S1x2560_0_0
abbrev rOut : Rect S512x2560 := Rect.unit (s := S512x2560) ![0, 0] S512x2560.size inb_S512x2560_S512x2560_0_0

/-- What the output buffer holds after the body, from what the four input buffers hold: the one store's value,
    laid over the whole buffer. -/
def stored (x : Vec F S512x1024 .f32) (w : Vec F S1024x2560 .bf16) (s : Vec F S1x2560 .f32) (b : Vec F S1x2560 .f32) :
    Vec F S512x2560 .f32 :=
  View.canon [⟨rOut, k0_pay1 (View.ld x rRows) (View.ld w rWeight) (View.ld s rLane) (View.ld b rLane)⟩]

/-- The one store covers the output buffer. -/
theorem stored_covers (p0 : Vec F S512x2560 .f32) (y : S512x2560.Idx) :
    ∃ pc ∈ ([⟨rOut, p0⟩] : List (View.Piece (Elt F) S512x2560 .f32)), y ∈ pc.1.set :=
  View.cover_of_tiled [⟨rOut, p0⟩] S512x2560.size (by rfl) y

/-! ## The body's triple -/

set_option maxHeartbeats 4000000 in
/-- On five whole buffers, the inputs at `x`, `w`, `s`, `b` and the output at anything, the body runs to the
    continuation with the inputs as they were and the output at `stored x w s b`: four loads, a dead load of the
    output buffer, one whole store. -/
theorem sound_kernel (c : Dev nD) (E : Set ℕ) (i : grid0.Coords)
    (arg1 : Memref sig .tc .vmem S512x1024 .f32) (harg1 : arg1.IsWhole)
    (arg2 : Memref sig .tc .vmem S1024x2560 .bf16) (harg2 : arg2.IsWhole)
    (arg3 : Memref sig .tc .vmem S1x2560 .f32) (harg3 : arg3.IsWhole)
    (arg4 : Memref sig .tc .vmem S1x2560 .f32) (harg4 : arg4.IsWhole)
    (arg5 : Memref sig .tc .vmem S512x2560 .f32) (harg5 : arg5.IsWhole)
    (x : Vec F S512x1024 .f32) (w : Vec F S1024x2560 .bf16) (s : Vec F S1x2560 .f32) (b : Vec F S1x2560 .f32)
    (K : PUnit → sProp 𝕄) :
    iprop(owns (c : Thread nD τ) arg1 fullShare x ∗ owns (c : Thread nD τ) arg2 fullShare w
        ∗ owns (c : Thread nD τ) arg3 fullShare s ∗ owns (c : Thread nD τ) arg4 fullShare b
        ∗ (∃ d, owns (c : Thread nD τ) arg5 fullShare d)
        ∗ (iprop(owns (c : Thread nD τ) arg1 fullShare x ∗ owns (c : Thread nD τ) arg2 fullShare w
            ∗ owns (c : Thread nD τ) arg3 fullShare s ∗ owns (c : Thread nD τ) arg4 fullShare b
            ∗ owns (c : Thread nD τ) arg5 fullShare (stored x w s b)) -∗ K ⟨⟩))
      ⊢ wp frame (wpE (defs₀ (F := F)) Variants.none c none) E
          (cc0__kernel i arg1 harg1 arg2 harg2 arg3 harg3 arg4 harg4 arg5 harg5) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the one pipeline on core `c`, the output buffer's contents after the body (`out`) a
    parameter: the arrays as the region finds them; after the body the block of rows as fetched over a buffer of
    zero words, the weight, scale and bias blocks as they are, and `out`; the class's invariant; nothing owed. -/
def dats (out : Dev nD → Fin cfg0.N → S512x2560.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => out c t
  Φ _ := Pipeline.ΦA spec0 c
  q _ := fullShare
  owed _ := 0

variable (out : Dev nD → Fin cfg0.N → S512x2560.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t
    = win0_0.fill (grid0.coords t) (fun _ => Scalar.ofBits .f32 0#32) (iblk m c 0 t) := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]

/-- The block of rows is fetched at every point: the buffer holds the rows inside the array, and on the rest
    whatever it held (`d`). -/
theorem before0_0 (c : Dev nD) (t : Fin cfg0.N) (d) :
    (dats m out 0 c).before 0 t d = win0_0.fill (grid0.coords t) d (iblk m c 0 t) := by
  rw [Dat.before_fetched _ 0 t (fetch0_0 t) d]
  unfold Dat.fetched Dat.blockOf iblk
  rw [A_eq]
/-- The weight, scale and bias buffers hold their one block at every point. -/
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d
theorem before0_3 (c : Dev nD) (t : Fin cfg0.N) (d) : (dats m out 0 c).before 3 t d = iblk m c 3 t :=
  before0_3_of m (dats m out 0 c) (A_eq m out c 3) (after0_3 m out c) t d

/-! ## The obligation that says nothing of the output buffer -/

/-- The output window, and only it, is forgotten. -/
abbrev forgetOut : Fin cfg0.W → Bool :=
  fun | 0 => false | 1 => false | 2 => false | 3 => false | 4 => true | ⟨_ + 5, h⟩ => absurd h (Nat.not_lt.2 (Nat.le_add_left _ _))

/-- What the body is called with at point `t` when the output buffer is forgotten, -/
def preForget (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ X, owns (c : Thread nD τ) (st0_4 t) fullShare X))

/-- and what it hands back: the block of rows stated on the rows inside the array only. -/
def postForget (c : Dev nD) (t : Fin cfg0.N) : sProp 𝕄 :=
  iprop((dats m out 0 c).Φ t.succ ∗ (dats m out 0 c).owesAt () t.succ
    ∗ (∃ d, owns (c : Thread nD τ) (st0_0 t) fullShare
        ((cfg0.win 0).fill (cfg0.grid.coords t) d ((cfg0.win 0).cut (cfg0.grid.coords t) ((dats m out 0 c).after 0 t))))
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ (∃ X, owns (c : Thread nD τ) (st0_4 t) fullShare X))

theorem sound_forget (c : Dev nD) (t : Fin cfg0.N) :
    preForget m out c t ⊢ wp frame (wpE (defs₀ (F := F)) Variants.none c none) Set.univ (bodyAt0 t) (fun _ => postForget m out c t) := by
  unfold preForget postForget bodyAt0
  simp only [before0_0, before0_1, before0_2, before0_3]
  rw [show (dats m out 0 c).Φ t.succ = (dats m out 0 c).Φ t.castSucc from rfl,
    show (dats m out 0 c).owesAt () t.succ = (dats m out 0 c).owesAt () t.castSucc from rfl,
    after0_0, after0_1, after0_2, after0_3]
  iintro ⟨HΦ, Ho, ⟨%d0, H0⟩, ⟨%d1, H1⟩, ⟨%d2, H2⟩, ⟨%d3, H3⟩, ⟨%X4, H4⟩⟩
  iapply (sound_kernel c Set.univ _ _ _ _ _ _ _ _ _ _ _ (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show (cfg0.win 0).cut (cfg0.grid.coords t) (win0_0.fill (grid0.coords t) (fun _ => Scalar.ofBits .f32 0#32) (iblk m c 0 t))
        = iblk m c 0 t from win0_0.cut_fill _ _ _]
    iexact H0
  isplitl [H1]; · iexact H1
  isplitl [H2]; · iexact H2
  isplitl [H3]; · iexact H3
  iexists _; iexact H4

theorem obligation_forget (c : Dev nD) :
    BodyObligationLoose (dats (F := F) m out 0 c) (defs₀ (F := F)) Variants.none () Set.univ forgetOut := fun t => by
  rw [bigSep_W0, bigSep_W0]
  exact sound_forget m out c t

/-! ## The run and the frame -/

/-- The one buffer the host line after the region writes: the reshaped result. -/
abbrev tailWrites : Finset (Ref sig .tc) := {main_v6}

theorem tail_writes : ∀ ops ∈ ([hostOps1] : List (List (HloOp τ sig (Elt F)))), ∀ op ∈ ops,
    ∀ b : Ref sig .tc, Proc.devRef (τ := τ) .tc b ∈ op.writes → b ∈ tailWrites := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) _ hb)

set_option backward.isDefEq.respectTransparency.types false in
/-- Every weakly fair execution of @main terminates, and every buffer that is neither a window's array nor the
    reshaped result ends as the region found it. -/
theorem run_forget : θ_run defs (onTc (τ := τ) (main (F := F))) (s₀ m ρ)
    (Pipeline.RDat.FramePostR cfg0 (fun c => (dats m out 0 c).toRForget forgetOut) tailWrites
      (fun c b => V0 m c (Proc.devRef .tc b))) :=
  Pipeline.RDat.θ_run_frame_around_T cfgs (0 : Fin 1) launch0 defs₀ Variants.none
    (fun c => (dats m out 0 c).toRForget forgetOut) tailWrites m ρ main
    (hbody := fun c => (obligation_forget m out c).toRForget)
    (hshare := fun c => (dats m out 0 c).share_full fun _ => rfl) (howed := fun _ _ => rfl)
    (V₀ := V0 m) (opss := [hostOps1]) (hsub := sfx_sub) (hfresh := sfx_fresh) (hkeep := sfx_keeps)
    (hT := tail_writes) (hmain := hmain m Variants.none) (hA := A_eq m out) (hΦ := fun _ _ => rfl)

/-- THE FRAME: the four arguments are no window's array and are not written after the region, so they end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c)⟩)
    (run_forget m ρ (fun _ _ _ => Scalar.ofBits .f32 0#32))

end Cert.KernelIdeal.Body

end
-- ==== Proof.LibReciprocal.lean ====
/-
  General lemmas on the extended reals: a product with the reciprocal of a nonzero divisor is the quotient by that
  divisor, infinite divisors included; and a quantity clamped below by the float literal one is never zero.

  The quotient here is the idealized float quotient: for a divisor `y ≠ 0` it is `x * y⁻¹`, with `(±∞)⁻¹ = 0`.
  Hence `1 / y = y⁻¹` and `x * (1 / y) = x * y⁻¹ = x / y` for every `x`, finite or not: no finiteness of `x` or `y`
  is needed, only `y ≠ 0`.
-/
import Idealize.ShloMosaic.PureOps.Ideal

noncomputable section

namespace Reciprocal

open Idealize.ShloMosaic

/-- The float literal `1.0` (single precision) denotes the real number one. -/
theorem one_f32 : Ideal.ofBits .f32 0x3F800000#32 = 1 := by
  simp [Ideal.ofBits, Ideal.ieee, -EReal.coe_mul]; norm_num

/-- The reciprocal of a nonzero extended real is its inverse. -/
theorem div_one_left (y : EReal) (hy : y ≠ 0) : Ideal.div 1 y = y⁻¹ := by
  rw [Ideal.div, if_neg hy, one_mul]

/-- Multiplying by the reciprocal of a nonzero divisor is dividing by it, at the infinities too. -/
theorem mul_div_one (x y : EReal) (hy : y ≠ 0) : x * Ideal.div 1 y = Ideal.div x y := by
  rw [div_one_left y hy, Ideal.div, if_neg hy]

/-- A quantity clamped below by the literal one is at least one, hence not zero. -/
theorem max_one_ne_zero (d : EReal) : max d (Ideal.ofBits .f32 0x3F800000#32) ≠ 0 := by
  rw [one_f32]
  intro h
  have h1 : (1 : EReal) ≤ max d 1 := le_max_right d 1
  rw [h] at h1
  exact absurd h1 (not_le.mpr zero_lt_one)

/-- The mean by a clamped count, written either way: the sum times the reciprocal of the clamped count is the sum
    divided by the clamped count. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  have h := mul_div_one x _ (max_one_ne_zero d)
  rw [one_f32] at h ⊢
  exact h

end Reciprocal

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.RowQuant.lean ====
/-
  Per-row symmetric quantization on the extended reals, and the two spellings of one output entry.

  A row `x` of K numbers has the scale `s = max(max_k |x_k|, c) / q` (`c` the float literal 1e-8, `q` = 127; the
  maximum starts from -∞).  One output entry is `(Σ_k round(x_k / s) · w_k) · s · a + b`.  The kernel writes the
  quotient as the product with the reciprocal, `x_k · (1 / s)`; the reference writes it `x_k / s` and rounds
  "straight through", `v + (round v − v)`.

  For a row of real numbers `s` is a positive real: the maximum is below +∞, and clamping from below by a
  positive real makes it a positive real.  Then the product with the reciprocal IS the quotient (true for every
  nonzero divisor), the quotient `v` is a real number, its rounding is an integer, and `v + (r − v) = r` holds
  because `v` is real (it fails at the infinities, where `v − v` is −∞).  So the two spellings agree.
-/
import Idealize.ShloMosaic.PureOps.Ideal.Laws
import proofs.«172809_j14302241096002_2_alg».proof.Proof.LibReciprocal
import proofs.«172809_j14302241096002_2_alg».proof.Proof.LibRealValued

noncomputable section

open scoped BigOperators

namespace Cert.RowQuant

open Idealize.ShloMosaic Cert.RealValued

/-! ## The three literals -/

/-- The reduction's initial word is -∞. -/
theorem negInf_f32 : Ideal.ofBits .f32 0xFF800000#32 = ⊥ := by
  simp [Ideal.ofBits, Ideal.ieee]

/-- The clamp 0x322BCC77 (the float nearest 1e-8) is the positive real 11258999 · 2⁻⁵⁰. -/
theorem floor_f32 : Ideal.ofBits .f32 0x322BCC77#32 = ((11258999 / 2 ^ 50 : ℝ) : EReal) := by
  simp [Ideal.ofBits, Ideal.ieee, -EReal.coe_mul]; norm_num

/-- The word 0x42FE0000 is 127. -/
theorem qmax_f32 : Ideal.ofBits .f32 0x42FE0000#32 = ((127 : ℝ) : EReal) := by
  simp [Ideal.ofBits, Ideal.ieee, -EReal.coe_mul]; norm_num

/-! ## The row's scale -/

variable {K : ℕ}

/-- The largest absolute value of a row, the maximum taken from -∞. -/
def rowAbsMax (row : Fin K → EReal) : EReal :=
  (Finset.univ : Finset (Fin K)).fold max (Ideal.ofBits .f32 0xFF800000#32) fun k => max (row k) (-(row k))

/-- The row's scale: its largest absolute value, clamped below by 1e-8, over 127. -/
def rowScale (row : Fin K → EReal) : EReal :=
  Ideal.div (max (rowAbsMax row) (Ideal.ofBits .f32 0x322BCC77#32)) (Ideal.ofBits .f32 0x42FE0000#32)

/-- Rounding to the nearest integer, ties to even. -/
abbrev rnd (x : EReal) : EReal := Ideal.liftRound Ideal.roundHalfEven x

/-- A maximum from -∞ of real numbers is not +∞. -/
theorem fold_max_ne_top (s : Finset (Fin K)) (f : Fin K → EReal) (hf : ∀ k, IsReal (f k)) :
    s.fold max (⊥ : EReal) f ≠ ⊤ := by
  classical
  induction s using Finset.induction_on with
  | empty => rw [Finset.fold_empty]; exact bot_ne_top
  | insert a s ha ih =>
    rw [Finset.fold_insert ha]
    intro h
    rcases max_eq_top.mp h with h | h
    · obtain ⟨r, hr⟩ := hf a; rw [hr] at h; exact EReal.coe_ne_top r h
    · exact ih h

theorem isReal_abs {x : EReal} (hx : IsReal x) : IsReal (max x (-x)) := by
  obtain ⟨r, rfl⟩ := hx
  rcases max_cases ((r : ℝ) : EReal) (-((r : ℝ) : EReal)) with ⟨h, -⟩ | ⟨h, -⟩
  · rw [h]; exact ⟨r, rfl⟩
  · rw [h]; exact ⟨-r, (EReal.coe_neg r).symm⟩

/-- The scale of a row of real numbers is a positive real. -/
theorem rowScale_pos (row : Fin K → EReal) (hrow : ∀ k, IsReal (row k)) :
    ∃ s : ℝ, 0 < s ∧ rowScale row = (s : EReal) := by
  have hA : rowAbsMax row ≠ ⊤ := by
    unfold rowAbsMax; rw [negInf_f32]
    exact fold_max_ne_top _ _ fun k => isReal_abs (hrow k)
  set M : EReal := max (rowAbsMax row) (Ideal.ofBits .f32 0x322BCC77#32) with hM
  have hc : (0 : ℝ) < 11258999 / 2 ^ 50 := by positivity
  have hle : ((11258999 / 2 ^ 50 : ℝ) : EReal) ≤ M := by rw [hM, floor_f32]; exact le_max_right _ _
  have hMtop : M ≠ ⊤ := by
    rw [hM, floor_f32]; intro h
    rcases max_eq_top.mp h with h | h
    · exact hA h
    · exact EReal.coe_ne_top _ h
  have hMbot : M ≠ ⊥ := fun h => by rw [h] at hle; exact absurd hle (not_le.mpr (EReal.bot_lt_coe _))
  have hMr : ((M.toReal : ℝ) : EReal) = M := EReal.coe_toReal hMtop hMbot
  have hpos : 0 < M.toReal := by
    have : ((11258999 / 2 ^ 50 : ℝ) : EReal) ≤ ((M.toReal : ℝ) : EReal) := by rw [hMr]; exact hle
    exact lt_of_lt_of_le hc (EReal.coe_le_coe_iff.mp this)
  refine ⟨M.toReal * (1 / 127), by positivity, ?_⟩
  show Ideal.div M (Ideal.ofBits .f32 0x42FE0000#32) = _
  rw [qmax_f32, Ideal.div_coe (by norm_num : (127 : ℝ) ≠ 0), ← hMr, ← EReal.coe_mul, hMr]

/-! ## One quantized entry, both ways -/

/-- The kernel's quantized entry: the product with the reciprocal of the scale, rounded. -/
def quantMul (row : Fin K → EReal) (k : Fin K) : EReal :=
  rnd (row k * Ideal.div (Ideal.ofBits .f32 0x3F800000#32) (rowScale row))

/-- The reference's: the quotient by the scale, rounded straight through. -/
def quantDiv (row : Fin K → EReal) (k : Fin K) : EReal :=
  Ideal.div (row k) (rowScale row) + (rnd (Ideal.div (row k) (rowScale row)) - Ideal.div (row k) (rowScale row))

/-- For a row of real numbers the two are one number. -/
theorem quantMul_eq_quantDiv (row : Fin K → EReal) (hrow : ∀ k, IsReal (row k)) (k : Fin K) :
    quantMul row k = quantDiv row k := by
  obtain ⟨s, hs, hsc⟩ := rowScale_pos row hrow
  obtain ⟨x, hx⟩ := hrow k
  have hs0 : ((s : ℝ) : EReal) ≠ 0 := by
    intro h; exact hs.ne' (EReal.coe_eq_zero.mp h)
  unfold quantMul quantDiv
  rw [Reciprocal.one_f32, hsc, Reciprocal.mul_div_one _ _ hs0, hx, Ideal.div_coe hs.ne', ← EReal.coe_mul]
  simp only [rnd, Ideal.liftRound_coe]
  rw [← EReal.coe_sub, ← EReal.coe_add]
  congr 1; ring

/-- One output entry in the kernel's spelling. -/
def entryMul (row wcol : Fin K → EReal) (a b : EReal) : EReal :=
  (∑ k, quantMul row k * wcol k) * rowScale row * a + b

/-- One output entry in the reference's spelling. -/
def entryDiv (row wcol : Fin K → EReal) (a b : EReal) : EReal :=
  (∑ k, quantDiv row k * wcol k) * rowScale row * a + b

theorem entryMul_eq_entryDiv (row wcol : Fin K → EReal) (a b : EReal) (hrow : ∀ k, IsReal (row k)) :
    entryMul row wcol a b = entryDiv row wcol a b := by
  unfold entryMul entryDiv
  rw [Finset.sum_congr rfl fun k _ => by rw [quantMul_eq_quantDiv row hrow k]]

/-- An entry depends on the row only through its values. -/
theorem entryMul_congr {row row' : Fin K → EReal} (h : ∀ k, row k = row' k) (wcol : Fin K → EReal) (a b : EReal) :
    entryMul row wcol a b = entryMul row' wcol a b := by
  rw [show row = row' from funext h]

end Cert.RowQuant

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.BlockEntry.lean ====
/-
  The value the body stores, read at one entry.

  At the extended reals, entry `(r, o)` of the 512×2560 block the body stores is
  `(Σ_k round(x[r,k] · (1 / s_r)) · w[k,o]) · s_r · a[o] + b[o]`, with `s_r` the scale of row `r` of the loaded
  block of activations: the row maximum is a lane reduction over that row only, the scale column is broadcast
  along the row, the matrix product into the zero accumulator is the plain sum over `k`, and the scale and
  bias rows are broadcast down the rows.  In particular the entry depends on the loaded activations through
  row `r` alone.
-/
import proofs.«172809_j14302241096002_2_alg».proof.Proof.Gen.KernelIdeal.Skeleton
import proofs.«172809_j14302241096002_2_alg».proof.Proof.RowQuant
import proofs.«172809_j14302241096002_2_alg».proof.Proof.LibKeepdims
import proofs.«172809_j14302241096002_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockEntry

open Idealize.ShloMosaic Idealize.ShloMosaic.ValueIdx
open Cert.KernelIdeal Cert.KernelIdeal.Gen Cert.RowQuant

/-! ## Small layout readings -/

/-- A `[1, b]` row broadcast down to `[n, b]` reads, at `(p, j)`, the row at `j`. -/
theorem broadcastTo_1b_ab_apply {α : Type} {n b : ℕ} (v : (⟨2, ![1, b]⟩ : Shape).Idx → α)
    (h : (⟨2, ![1, b]⟩ : Shape).Broadcasts ⟨2, ![n, b]⟩) (p : Fin n) (j : Fin b) :
    broadcastTo ⟨2, ![n, b]⟩ v h (ix2 p j) = v (ix2 (0 : Fin 1) j) := by
  refine broadcastTo_apply v h (ix2 p j) (ix2 (0 : Fin 1) j) fun ax => ?_
  match ax with
  | ⟨0, _⟩ => rfl
  | ⟨1, _⟩ =>
    show j.val = if b = 1 then 0 else j.val
    split
    · have := j.isLt; omega
    · rfl

/-! ## The scale column -/

/-- The column of row scales of a block of activations, as the body computes it. -/
def scaleCol (x : FVec Ideal S512x1024 .f32) : FVec Ideal S512x1 .f32 :=
  divf (maximumf (shapeCast S512x1 (multiReduction (F := Ideal) .maximumf [1] S512 (absf x) 0xFF800000#32 reduces_S512x1024_S512 (.inl rfl) rfl) shapeCasts_S512_S512x1)
      (broadcast S512x1 (Scalar.ofBits (F := Ideal) .f32 0x322BCC77#32)))
    (broadcast S512x1 (Scalar.ofBits (F := Ideal) .f32 0x42FE0000#32))

/-- The lane maximum of absolute values at row `r`, from -∞, is the row's largest absolute value. -/
theorem rowMax_apply (x : FVec Ideal S512x1024 .f32) (hφ : FKind.Formats .f32)
    (hacc : (0xFF800000#32 : BitVec 32) = 0xFF800000#32) (r : Fin 512) :
    multiReduction (F := Ideal) .maximumf [1] S512 (absf x) 0xFF800000#32 reduces_S512x1024_S512 hφ hacc (ix1 r)
      = rowAbsMax fun k : Fin 1024 => x (ix2 r k) :=
  (Ideal.multiReduction_maximumf_single (absf x) 0xFF800000#32 reduces_S512x1024_S512 hφ hacc (ix1 r)).trans (by
    unfold rowAbsMax
    refine congrArg (fun f => Finset.fold max (Ideal.ofBits .f32 0xFF800000#32) f Finset.univ) (funext fun k => ?_)
    show max (x (reduces_S512x1024_S512.lift (ix1 r) k)) (-(x (reduces_S512x1024_S512.lift (ix1 r) k))) = _
    rw [show reduces_S512x1024_S512.lift (ix1 r) k = ix2 r k from
      funext fun a => Fin.ext (by match a with | ⟨0, _⟩ => rfl | ⟨1, _⟩ => rfl)]
    rfl)

/-- Its entry at row `r` is the scale of row `r`. -/
theorem scaleCol_apply (x : FVec Ideal S512x1024 .f32) (r : Fin 512) :
    scaleCol x (ix2 r (0 : Fin 1)) = rowScale fun k : Fin 1024 => x (ix2 r k) := by
  unfold scaleCol rowScale
  show Ideal.div (max (shapeCast S512x1 (multiReduction (F := Ideal) .maximumf [1] S512 (absf x) 0xFF800000#32 reduces_S512x1024_S512 (.inl rfl) rfl) shapeCasts_S512_S512x1 (ix2 r (0 : Fin 1)))
      (Ideal.ofBits .f32 0x322BCC77#32)) (Ideal.ofBits .f32 0x42FE0000#32) = _
  rw [Keepdims.shapeCast_a_a1_apply]
  exact congrArg (fun y => Ideal.div (max y (Ideal.ofBits .f32 0x322BCC77#32)) (Ideal.ofBits .f32 0x42FE0000#32))
    (rowMax_apply x _ _ r)

/-! ## The matrix product's coordinates -/

/-- The body's one matrix product: 512×1024 by 1024×2560, the left's second axis against the right's first. -/
abbrev prodDims : DotDims S512x1024 S1024x2560 S512x2560 := dot_S512x1024_S1024x2560_S512x2560_1_0_0_1_n_n

theorem lhs0 (j : S512x2560.Idx) (q : prodDims.contr.Idx) : (prodDims.lhsIdx j q 0).val = (j 0).val := by
  unfold DotDims.lhsIdx
  rw [dif_neg (show ¬(0 : Fin S512x1024.rank) ∈ dot_S512x1024_S1024x2560_S512x2560_1_0_0_1_n_n.lhsBatch by decide),
    dif_pos (show (0 : Fin S512x1024.rank) ∈ dot_S512x1024_S1024x2560_S512x2560_1_0_0_1_n_n.lhsNonContracting by decide)]
  rfl
theorem lhs1 (j : S512x2560.Idx) (q : prodDims.contr.Idx) : (prodDims.lhsIdx j q 1).val = (q ⟨0, by decide⟩).val :=
  dot_S512x1024_S1024x2560_S512x2560_1_0_0_1_n_n.lhsIdx_val_of_single rfl j q
theorem rhs0 (j : S512x2560.Idx) (q : prodDims.contr.Idx) : (prodDims.rhsIdx j q 0).val = (q ⟨0, by decide⟩).val :=
  dot_S512x1024_S1024x2560_S512x2560_1_0_0_1_n_n.rhsIdx_val_of_single rfl j q
theorem rhs1 (j : S512x2560.Idx) (q : prodDims.contr.Idx) : (prodDims.rhsIdx j q 1).val = (j 1).val := by
  unfold DotDims.rhsIdx
  rw [dif_neg (show ¬(1 : Fin S1024x2560.rank) ∈ dot_S512x1024_S1024x2560_S512x2560_1_0_0_1_n_n.rhsBatch by decide),
    dif_pos (show (1 : Fin S1024x2560.rank) ∈ dot_S512x1024_S1024x2560_S512x2560_1_0_0_1_n_n.rhsNonContracting by decide)]
  rfl

/-! ## The stored value at an entry -/

/-- Entry `(r, o)` of the stored block: the kernel's spelling of the output entry of row `r` of the loaded
    activations against column `o` of the loaded weight. -/
theorem pay_apply (x : Vec Ideal S512x1024 .f32) (w : Vec Ideal S1024x2560 .bf16) (s b : Vec Ideal S1x2560 .f32)
    (r : Fin 512) (o : Fin 2560) :
    k0_pay1 (F := Ideal) x w s b (ix2 r o)
      = entryMul (fun k : Fin 1024 => x (ix2 r k)) (fun k : Fin 1024 => w (ix2 k o)) (s (ix2 (0 : Fin 1) o)) (b (ix2 (0 : Fin 1) o)) := by
  unfold k0_pay1
  simp only [shapeCast_self]
  show (FloatOps.matmul dot_S512x1024_S1024x2560_S512x2560_1_0_0_1_n_n none
          (truncf .bf16 (roundeven (mulf x (broadcastTo S512x1024 (divf (broadcast S512x1 (Scalar.ofBits (F := Ideal) .f32 0x3F800000#32)) (scaleCol x)) broadcasts_S512x1_S512x1024))) bitsLt_bf16_f32)
          w (constant S512x2560 .f32 0x00000000#32) (ix2 r o)
        * broadcastTo S512x2560 (scaleCol x) broadcasts_S512x1_S512x2560 (ix2 r o))
        * broadcastTo S512x2560 s broadcasts_S1x2560_S512x2560 (ix2 r o)
      + broadcastTo S512x2560 b broadcasts_S1x2560_S512x2560 (ix2 r o) = _
  rw [Keepdims.broadcastTo_a1_ab_apply, broadcastTo_1b_ab_apply, broadcastTo_1b_ab_apply, scaleCol_apply,
    Cert.Lib.PlainDot.matmul_zero_apply prodDims rfl rfl lhs0 lhs1 rhs0 rhs1]
  unfold entryMul
  refine congrArg (fun y : EReal => y * (rowScale fun k : Fin 1024 => x (ix2 r k)) * s (ix2 (0 : Fin 1) o) + b (ix2 (0 : Fin 1) o))
    (Finset.sum_congr rfl fun k _ => ?_)
  refine congrArg (fun y : EReal => y * w (ix2 k o)) ?_
  show rnd (x (ix2 r k) * broadcastTo S512x1024 (divf (broadcast S512x1 (Scalar.ofBits (F := Ideal) .f32 0x3F800000#32)) (scaleCol x)) broadcasts_S512x1_S512x1024 (ix2 r k)) = _
  rw [Keepdims.broadcastTo_a1_ab_apply]
  show rnd (x (ix2 r k) * Ideal.div (Ideal.ofBits .f32 0x3F800000#32) (scaleCol x (ix2 r (0 : Fin 1)))) = _
  rw [scaleCol_apply]
  rfl

/-- The entry reads the loaded activations through row `r` only. -/
theorem pay_row_local (x x' : Vec Ideal S512x1024 .f32) (w : Vec Ideal S1024x2560 .bf16) (s b : Vec Ideal S1x2560 .f32)
    (r : Fin 512) (o : Fin 2560) (h : ∀ k : Fin 1024, x (ix2 r k) = x' (ix2 r k)) :
    k0_pay1 (F := Ideal) x w s b (ix2 r o) = k0_pay1 (F := Ideal) x' w s b (ix2 r o) := by
  rw [pay_apply, pay_apply]
  exact entryMul_congr h _ _ _

end Cert.KernelIdeal.BlockEntry

end
-- ==== Proof.LinearSpec.lean ====
/-
  The quantized linear layer as one function of its four arguments.

  For activations `x : [32, 577, 1024]`, integer weights `w : [2560, 1024]`, column scales `a : [2560]` and bias
  `b : [2560]`, entry `(p, q, o)` of the result is the output entry (RowQuant) of the row `x[p, q, ·]` against the
  weight row `w[o, ·]` read as real numbers, with `a[o]` and `b[o]`.  Two spellings: the kernel's (product with the
  reciprocal of the row scale) and the reference's (quotient, rounded straight through).  They agree on
  activations that are real numbers.
-/
import proofs.«172809_j14302241096002_2_alg».proof.Proof.RowQuant
import Idealize.ShloMosaic.Lib.ValueIdx

noncomputable section

namespace Cert.LinearSpec

open Idealize.ShloMosaic Idealize.ShloMosaic.ValueIdx Cert.RowQuant Cert.RealValued

/-- The result in the kernel's spelling. -/
def resultMul (x : (⟨3, ![32, 577, 1024]⟩ : Shape).Idx → EReal) (w : (⟨2, ![2560, 1024]⟩ : Shape).Idx → BitVec 32)
    (a b : (⟨1, ![2560]⟩ : Shape).Idx → EReal) : (⟨3, ![32, 577, 2560]⟩ : Shape).Idx → EReal := fun i =>
  entryMul (fun k : Fin 1024 => x (ix3 (i 0) (i 1) k)) (fun k : Fin 1024 => (((w (ix2 (i 2) k)).toInt : ℝ) : EReal))
    (a (ix1 (i 2))) (b (ix1 (i 2)))

/-- The result in the reference's spelling. -/
def resultDiv (x : (⟨3, ![32, 577, 1024]⟩ : Shape).Idx → EReal) (w : (⟨2, ![2560, 1024]⟩ : Shape).Idx → BitVec 32)
    (a b : (⟨1, ![2560]⟩ : Shape).Idx → EReal) : (⟨3, ![32, 577, 2560]⟩ : Shape).Idx → EReal := fun i =>
  entryDiv (fun k : Fin 1024 => x (ix3 (i 0) (i 1) k)) (fun k : Fin 1024 => (((w (ix2 (i 2) k)).toInt : ℝ) : EReal))
    (a (ix1 (i 2))) (b (ix1 (i 2)))

/-- On activations that are real numbers the two spellings are one function. -/
theorem resultMul_eq_resultDiv (x : (⟨3, ![32, 577, 1024]⟩ : Shape).Idx → EReal)
    (w : (⟨2, ![2560, 1024]⟩ : Shape).Idx → BitVec 32) (a b : (⟨1, ![2560]⟩ : Shape).Idx → EReal)
    (hx : ∀ i, IsReal (x i)) : resultMul x w a b = resultDiv x w a b := by
  funext i
  exact entryMul_eq_entryDiv _ _ _ _ fun k => hx _

end Cert.LinearSpec

end
-- ==== Proof.KernelValue.lean ====
/-
  What the kernel's result holds, at the extended reals.

  The output block at a point is named exactly: the stored value of the block of rows (as fetched over a buffer of
  zero words) and the weight, scale and bias blocks.  At the last point only 32 of the 512 rows are inside the
  arrays; the rest of the buffer of rows holds words nothing names, but an output entry reads its own row of the
  activations only, so the 32 output rows that are written back do not depend on them.  Each written-back block is
  the block of ONE function of the flattened arrays (`flat`), the blocks cover the flattened result
  (row `ρ` is in the block of point `ρ / 512`), and the reshape after the region reads it at the same row-major
  position.  Read through the reshapes, the cast and the transpose before the region, the result is
  `LinearSpec.resultMul` of the four arguments.
-/
import proofs.«172809_j14302241096002_2_alg».proof.Proof.KernelIdealBody
import proofs.«172809_j14302241096002_2_alg».proof.Proof.BlockEntry
import proofs.«172809_j14302241096002_2_alg».proof.Proof.LinearSpec
import Idealize.ShloMosaic.Lib.Pipeline.Value
import Idealize.ShloMosaic.Lib.StableHlo.Run
import Idealize.ShloMosaic.Lib.ValueLayout

set_option maxRecDepth 16384

noncomputable section

namespace Cert.KernelIdeal.Result

open Cert.KernelIdeal Cert.KernelIdeal.Gen Cert.KernelIdeal.Body Cert.KernelIdeal.BlockEntry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowQuant Cert.LinearSpec

local notation "𝕄" => MT nD τ sig Unit (Elt Ideal) ℕ (UR sig nD τ) ℕ

variable (m : (ℓ : Loc nD τ sig) → Buf (Elt Ideal) ℓ) (ρ : Dev nD → PrngReg)

theorem hz : (![0, 0] : Fin 2 → Nat) = fun _ => 0 := funext fun a => by fin_cases a <;> rfl

/-- Whole loads and one whole store: the stored block is the body's value of the buffers' contents. -/
theorem stored_eq (x : Vec Ideal S512x1024 .f32) (w : Vec Ideal S1024x2560 .bf16) (s b : Vec Ideal S1x2560 .f32) :
    stored (F := Ideal) x w s b = k0_pay1 x w s b := by
  unfold stored
  rw [View.canon_unit_zero hz]
  simp only [View.ld_unit_zero (S := S512x1024) hz, View.ld_unit_zero (S := S1024x2560) hz, View.ld_unit_zero (S := S1x2560) hz]

/-! ## The schedule's arithmetic, decided over the 37 points -/

theorem grid_facts : ∀ t : Fin cfg0.N,
    win0_0.xsize (grid0.coords t) (0 : Fin 2) = win0_4.xsize (grid0.coords t) (0 : Fin 2)
    ∧ win0_0.xsize (grid0.coords t) (1 : Fin 2) = 1024
    ∧ win0_4.xsize (grid0.coords t) (1 : Fin 2) = 2560
    ∧ win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.xsize (grid0.coords t) (0 : Fin 2) = (if t.val < 36 then 512 else 32) :=
  (by decide +kernel : ∀ t : Fin grid0.N, _)

/-! ## The output block, named -/

/-- The output buffer after the body at point `t`. -/
def outBlk (c : Dev nD) (t : Fin cfg0.N) : S512x2560.Idx → Elt Ideal .f32 :=
  stored (win0_0.fill (grid0.coords t) (fun _ => Scalar.ofBits (F := Ideal) .f32 0#32) (iblk m c 0 t)) (iblk m c 1 t) (iblk m c 2 t) (iblk m c 3 t)

/-- A block index of the output's moved part, by its coordinates. -/
theorem xinj4_eq (t : Fin cfg0.N) (j : (win0_4.xblock (grid0.coords t)).Idx) :
    win0_4.xinj (grid0.coords t) j
      = ix2 (⟨(j 0).val, (win0_4.xinj (grid0.coords t) j 0).isLt⟩ : Fin 512) (⟨(j 1).val, (win0_4.xinj (grid0.coords t) j 1).isLt⟩ : Fin 2560) :=
  funext fun a => Fin.ext (by match a with | ⟨0, _⟩ => rfl | ⟨1, _⟩ => rfl)

/-- A row of the buffer of rows that the output writes back is a row the fetch filled. -/
theorem moved_row (t : Fin cfg0.N) (j : (win0_4.xblock (grid0.coords t)).Idx) (hr : (j 0).val < 512) (k : Fin 1024) :
    win0_0.moved (grid0.coords t) (ix2 (⟨(j 0).val, hr⟩ : Fin 512) k) = true := by
  obtain ⟨e0, e1, -⟩ := grid_facts t
  refine (win0_0.moved_iff _ _).mpr fun a => ?_
  match a with
  | ⟨0, _⟩ => show (j 0).val < win0_0.xsize (grid0.coords t) (0 : Fin 2); rw [e0]; exact (j 0).isLt
  | ⟨1, _⟩ => show k.val < win0_0.xsize (grid0.coords t) (1 : Fin 2); rw [e1]; exact k.isLt

/-- The rows of the stored block that are written back do not depend on what the buffer of rows holds past the
    array's end. -/
theorem cut_stored_congr (t : Fin cfg0.N) (g : (win0_0.xblock (grid0.coords t)).Idx → Elt Ideal .f32)
    (d d' : S512x1024.Idx → Elt Ideal .f32) (w : Vec Ideal S1024x2560 .bf16) (s b : Vec Ideal S1x2560 .f32) :
    win0_4.cut (grid0.coords t) (stored (win0_0.fill (grid0.coords t) d g) w s b)
      = win0_4.cut (grid0.coords t) (stored (win0_0.fill (grid0.coords t) d' g) w s b) := by
  funext j
  show stored (win0_0.fill (grid0.coords t) d g) w s b (win0_4.xinj (grid0.coords t) j)
    = stored (win0_0.fill (grid0.coords t) d' g) w s b (win0_4.xinj (grid0.coords t) j)
  rw [stored_eq, stored_eq, xinj4_eq]
  refine pay_row_local _ _ w s b _ _ fun k => ?_
  have hm := moved_row t j (win0_4.xinj (grid0.coords t) j 0).isLt k
  unfold Window.fill
  rw [dif_pos hm, dif_pos hm]

/-! ## The exact obligation -/

def preExact (c : Dev nD) (t : Fin cfg0.N) : sProp 𝕄 :=
  iprop((dats m (outBlk m) 0 c).Φ t.castSucc ∗ (dats m (outBlk m) 0 c).owesAt () t.castSucc
    ∗ (∃ d, owns (c : Thread nD τ) (st0_0 t) fullShare ((dats m (outBlk m) 0 c).before 0 t d))
    ∗ (∃ d, owns (c : Thread nD τ) (st0_1 t) fullShare ((dats m (outBlk m) 0 c).before 1 t d))
    ∗ (∃ d, owns (c : Thread nD τ) (st0_2 t) fullShare ((dats m (outBlk m) 0 c).before 2 t d))
    ∗ (∃ d, owns (c : Thread nD τ) (st0_3 t) fullShare ((dats m (outBlk m) 0 c).before 3 t d))
    ∗ (∃ d, owns (c : Thread nD τ) (st0_4 t) fullShare ((dats m (outBlk m) 0 c).before 4 t d)))

def postExact (c : Dev nD) (t : Fin cfg0.N) : sProp 𝕄 :=
  iprop((dats m (outBlk m) 0 c).Φ t.succ ∗ (dats m (outBlk m) 0 c).owesAt () t.succ
    ∗ (∃ d, owns (c : Thread nD τ) (st0_0 t) fullShare
        ((cfg0.win 0).fill (cfg0.grid.coords t) d ((cfg0.win 0).cut (cfg0.grid.coords t) ((dats m (outBlk m) 0 c).after 0 t))))
    ∗ owns (c : Thread nD τ) (st0_1 t) fullShare ((dats m (outBlk m) 0 c).after 1 t)
    ∗ owns (c : Thread nD τ) (st0_2 t) fullShare ((dats m (outBlk m) 0 c).after 2 t)
    ∗ owns (c : Thread nD τ) (st0_3 t) fullShare ((dats m (outBlk m) 0 c).after 3 t)
    ∗ (∃ d, owns (c : Thread nD τ) (st0_4 t) fullShare
        ((cfg0.win 4).fill (cfg0.grid.coords t) d ((cfg0.win 4).cut (cfg0.grid.coords t) ((dats m (outBlk m) 0 c).after 4 t)))))

theorem sound_exact (c : Dev nD) (t : Fin cfg0.N) :
    preExact m c t ⊢ wp frame (wpE (defs₀ (F := Ideal)) Variants.none c none) Set.univ (bodyAt0 t) (fun _ => postExact m c t) := by
  unfold preExact postExact bodyAt0
  simp only [before0_0, before0_1, before0_2, before0_3]
  rw [show (dats m (outBlk m) 0 c).Φ t.succ = (dats m (outBlk m) 0 c).Φ t.castSucc from rfl,
    show (dats m (outBlk m) 0 c).owesAt () t.succ = (dats m (outBlk m) 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show (cfg0.win 0).cut (cfg0.grid.coords t) (win0_0.fill (grid0.coords t) (fun _ => Scalar.ofBits (F := Ideal) .f32 0#32) (iblk m c 0 t))
        = iblk m c 0 t from win0_0.cut_fill _ _ _]
    iexact H0
  isplitl [H1]; · iexact H1
  isplitl [H2]; · iexact H2
  isplitl [H3]; · iexact H3
  iexists stored (win0_0.fill (grid0.coords t) d0 (iblk m c 0 t)) (iblk m c 1 t) (iblk m c 2 t) (iblk m c 3 t)
  rw [show (cfg0.win 4).fill (cfg0.grid.coords t)
        (stored (win0_0.fill (grid0.coords t) d0 (iblk m c 0 t)) (iblk m c 1 t) (iblk m c 2 t) (iblk m c 3 t))
        ((cfg0.win 4).cut (cfg0.grid.coords t) (outBlk m c t))
      = stored (win0_0.fill (grid0.coords t) d0 (iblk m c 0 t)) (iblk m c 1 t) (iblk m c 2 t) (iblk m c 3 t) from
    win0_4.fill_congr_cut (grid0.coords t) (cut_stored_congr t (iblk m c 0 t) d0 _ _ _ _)]
  iexact H4

theorem obligation_exact (c : Dev nD) :
    BodyObligationLoose (dats (F := Ideal) m (outBlk m) 0 c) (defs₀ (F := Ideal)) Variants.none () Set.univ := fun t => by
  rw [bigSep_W0, bigSep_W0]
  exact sound_exact m c t

set_option backward.isDefEq.respectTransparency.types false in
/-- The run with every array of the pipeline named. -/
theorem run_main : θ_run defs (onTc (τ := τ) (main (F := Ideal))) (s₀ m ρ)
    (Pipeline.FramePost cfgs (dats m (outBlk m)) 0 (Pipeline.afterTail₀ cfgs (dats m (outBlk m)) 0 (V0 m) [hostOps1])) :=
  Pipeline.θ_run_frame_around cfgs (dats m (outBlk m)) (0 : Fin 1) launch0 defs₀ Variants.none m ρ main
    (hbody := obligation_exact m) (hshare := fun c => (dats m (outBlk m) 0 c).share_full fun _ => rfl)
    (howed := fun _ _ => rfl) (V₀ := V0 m) (opss := [hostOps1]) (hsub := sfx_sub) (hfresh := sfx_fresh)
    (hkeep := sfx_keeps) (hmain := hmain m Variants.none) (hA := A_eq m (outBlk m)) (hΦ := fun _ _ => rfl)

end Cert.KernelIdeal.Result

end
-- ==== Proof.KernelResult.lean ====
/-
  From the written-back blocks to the result array.

  Each written-back block is the block of ONE function `flat` of the flattened arrays; the 37 blocks cover the
  18464 rows (row `ρ` lies in the block of point `ρ / 512`; the last block holds the 32 rows 18432‥18463); so the
  flattened result is `flat`.  The reshape after the region reads it at the same row-major position, and the
  reshapes, the integer-to-float cast and the transpose before the region read the arguments: the result is the
  specification in the kernel's spelling.
-/
import proofs.«172809_j14302241096002_2_alg».proof.Proof.KernelValue

set_option maxRecDepth 16384

noncomputable section

namespace Cert.KernelIdeal.Result

open Cert.KernelIdeal Cert.KernelIdeal.Gen Cert.KernelIdeal.Body Cert.KernelIdeal.BlockEntry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowQuant Cert.LinearSpec

variable (m : (ℓ : Loc nD τ sig) → Buf (Elt Ideal) ℓ) (ρ : Dev nD → PrngReg)

/-! ## The flattened result as one function -/

/-- Entry `(ρ, o)` of the flattened result, from the flattened activations, the transposed weight and the scale and
    bias rows as the region finds them. -/
def flat (c : Dev nD) : S18464x2560.Idx → Elt Ideal .f32 := fun i =>
  entryMul (fun k : Fin 1024 => (V m c main_v0 : S18464x1024.Idx → EReal) (ix2 (i 0) k))
    (fun k : Fin 1024 => (V m c main_v2 : S1024x2560.Idx → EReal) (ix2 k (i 1)))
    ((V m c main_v3 : S1x2560.Idx → EReal) (ix2 (0 : Fin 1) (i 1)))
    ((V m c main_v4 : S1x2560.Idx → EReal) (ix2 (0 : Fin 1) (i 1)))

/-- WHAT POINT `t` WRITES BACK is block `t` of `flat`. -/
theorem flushed_eq (c : Dev nD) (t : Fin cfg0.N) :
    (dats m (outBlk m) 0 c).flushed 4 t = ((cfg0.win 4).blk t).view.read (Elt Ideal) (flat m c) := by
  show (cfg0.win 4).cut (grid0.coords t) ((dats m (outBlk m) 0 c).after 4 t) = _
  rw [after0_4]
  obtain ⟨e0, e1, e2, i00, i01, i40, i41, i10, i11, i20, i21, i30, i31, -⟩ := grid_facts t
  funext j
  show outBlk m c t (win0_4.xinj (grid0.coords t) j) = flat m c (((cfg0.win 4).blk t).view.emb j)
  unfold outBlk
  rw [stored_eq, xinj4_eq, pay_apply]
  unfold flat
  have hm := fun k => moved_row t j (win0_4.xinj (grid0.coords t) j 0).isLt k
  refine congr (congr (congr (congrArg entryMul (funext fun k => ?_)) (funext fun k => ?_)) ?_) ?_
  · unfold Window.fill
    rw [dif_pos (hm k)]
    unfold iblk
    rw [View.read_apply]
    refine congrArg (V m c main_v0 : S18464x1024.Idx → EReal) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * k.val = k.val; omega
  · unfold iblk
    rw [View.read_apply]
    refine congrArg (V m c main_v2 : S1024x2560.Idx → EReal) (funext fun a => Fin.ext ?_)
    match a with
    | ⟨0, _⟩ => show win0_1.index t (0 : Fin 2) * 1024 + 1 * k.val = k.val; omega
    | ⟨1, _⟩ => show win0_1.index t (1 : Fin 2) * 2560 + 1 * (j 1).val = win0_4.index t (1 : Fin 2) * 2560 + 1 * (j 1).val; omega
  · unfold iblk
    rw [View.read_apply]
    refine congrArg (V m c main_v3 : S1x2560.Idx → EReal) (funext fun a => Fin.ext ?_)
    match a with
    | ⟨0, _⟩ => show win0_2.index t (0 : Fin 2) * 1 + 1 * 0 = 0; omega
    | ⟨1, _⟩ => show win0_2.index t (1 : Fin 2) * 2560 + 1 * (j 1).val = win0_4.index t (1 : Fin 2) * 2560 + 1 * (j 1).val; omega
  · unfold iblk
    rw [View.read_apply]
    refine congrArg (V m c main_v4 : S1x2560.Idx → EReal) (funext fun a => Fin.ext ?_)
    match a with
    | ⟨0, _⟩ => show win0_3.index t (0 : Fin 2) * 1 + 1 * 0 = 0; omega
    | ⟨1, _⟩ => show win0_3.index t (1 : Fin 2) * 2560 + 1 * (j 1).val = win0_4.index t (1 : Fin 2) * 2560 + 1 * (j 1).val; omega

/-- An index of the flattened result is in point `t`'s block iff each coordinate is in the block's range inside
    the array. -/
theorem mem_blk (t : Fin cfg0.N) (i : S18464x2560.Idx) :
    i ∈ ((cfg0.win 4).blk t).view.set ↔ ∀ a : Fin 2, win0_4.index t a * S512x2560.size a ≤ (i a).val
      ∧ (i a).val < win0_4.index t a * S512x2560.size a + win0_4.xsize (grid0.coords t) a := by
  show i ∈ ((View.whole main_v5).slice (win0_4.rect t)).set ↔ _
  rw [View.set_slice_whole, Rect.mem_set_unit]
  exact Iff.rfl

/-- Every row is in the block of the point `row / 512`. -/
theorem covered (i : S18464x2560.Idx) :
    ∃ t : Fin cfg0.N, (cfg0.win 4).flush t = true ∧ i ∈ ((cfg0.win 4).blk t).view.set := by
  have h0 : (i 0).val < 18464 := (i 0).isLt
  have h1 : (i 1).val < 2560 := (i 1).isLt
  have hN : cfg0.N = 37 := N_0
  refine ⟨⟨(i 0).val / 512, by rw [hN]; omega⟩, flush0_4 _, ?_⟩
  rw [mem_blk]
  obtain ⟨-, -, e2, -, -, i40, i41, -, -, -, -, -, -, x4⟩ := grid_facts ⟨(i 0).val / 512, by rw [hN]; omega⟩
  have ht : (⟨(i 0).val / 512, by rw [hN]; omega⟩ : Fin cfg0.N).val = (i 0).val / 512 := rfl
  rw [ht] at i40 x4
  intro a
  match a with
  | ⟨0, _⟩ =>
    show win0_4.index _ (0 : Fin 2) * 512 ≤ (i 0).val ∧ (i 0).val < win0_4.index _ (0 : Fin 2) * 512 + win0_4.xsize _ (0 : Fin 2)
    rw [i40, x4]
    split <;> omega
  | ⟨1, _⟩ =>
    show win0_4.index _ (1 : Fin 2) * 2560 ≤ (i 1).val ∧ (i 1).val < win0_4.index _ (1 : Fin 2) * 2560 + win0_4.xsize _ (1 : Fin 2)
    rw [i41, e2]
    omega

/-- The flattened result after the run. -/
theorem final_flat (c : Dev nD) : (dats m (outBlk m) 0 c).arrAt 4 cfg0.N = flat m c :=
  (dats m (outBlk m) 0 c).arrAt_eq_of_cover 4 (flat m c) (fun t _ => flushed_eq m c t) covered

/-! ## The arrays the region finds, read through the host operations before it -/

/-- The flattened activations are the activations reshaped. -/
theorem V_rows (c : Dev nD) : (V m c main_v0 : S18464x1024.Idx → EReal)
    = shapeCast S18464x1024 (m ((c : Thread nD τ).loc main_arg0)) shapeCasts_S32x577x1024_S18464x1024 := by
  show StableHlo.after hostOps0 (fun b => m (c, b)) (Proc.devRef .tc main_v0) = _
  after_results <;> rfl

/-- The weight block is the integer weights read as floats, transposed. -/
theorem V_weight (c : Dev nD) : (V m c main_v2 : S1024x2560.Idx → EReal)
    = transpose S1024x2560 [1, 0] (sitofp (F := Ideal) .bf16 (m ((c : Thread nD τ).loc main_arg1))) transposes_S2560x1024_S1024x2560_1_0 := by
  show StableHlo.after hostOps0 (fun b => m (c, b)) (Proc.devRef .tc main_v2) = _
  after_results <;> rfl

/-- The scale row is the column scales reshaped. -/
theorem V_scale (c : Dev nD) : (V m c main_v3 : S1x2560.Idx → EReal)
    = shapeCast S1x2560 (m ((c : Thread nD τ).loc main_arg2)) shapeCasts_S2560_S1x2560 := by
  show StableHlo.after hostOps0 (fun b => m (c, b)) (Proc.devRef .tc main_v3) = _
  after_results <;> rfl

/-- The bias row is the bias reshaped. -/
theorem V_bias (c : Dev nD) : (V m c main_v4 : S1x2560.Idx → EReal)
    = shapeCast S1x2560 (m ((c : Thread nD τ).loc main_arg3)) shapeCasts_S2560_S1x2560 := by
  show StableHlo.after hostOps0 (fun b => m (c, b)) (Proc.devRef .tc main_v4) = _
  after_results <;> rfl

/-! ## The result -/

/-- `flat` at row `p·577 + q` is the specification at `(p, q, ·)`. -/
theorem flat_apply (c : Dev nD) (p : Fin 32) (q : Fin 577) (o : Fin 2560) (hrow : p.val * 577 + q.val < 18464) :
    flat m c (ix2 (⟨p.val * 577 + q.val, hrow⟩ : Fin 18464) o)
      = resultMul (m ((c : Thread nD τ).loc main_arg0)) (m ((c : Thread nD τ).loc main_arg1))
          (m ((c : Thread nD τ).loc main_arg2)) (m ((c : Thread nD τ).loc main_arg3)) (ix3 p q o) := by
  unfold flat resultMul
  rw [V_rows, V_weight, V_scale, V_bias]
  refine congr (congr (congr (congrArg entryMul (funext fun k => ?_)) (funext fun k => ?_)) ?_) ?_
  · exact shapeCast_apply _ _ (ix2 (⟨p.val * 577 + q.val, hrow⟩ : Fin 18464) k) (ix3 p q k) (by
      rw [Shape.rowMajor_val_two, Shape.rowMajor_val_three]
      show (p.val * 577 + q.val) * 1024 + k.val = (p.val * 577 + q.val) * 1024 + k.val
      rfl)
  · refine (transpose_apply [1, 0] _ transposes_S2560x1024_S1024x2560_1_0 (ix2 k o) (ix2 o k) fun b => ?_).trans rfl
    match b with
    | ⟨0, _⟩ => rfl
    | ⟨1, _⟩ => rfl
  · exact shapeCast_apply _ _ (ix2 (0 : Fin 1) o) (ix1 o) (by
      rw [Shape.rowMajor_val_one, Shape.rowMajor_val_two]
      show o.val = 0 * 2560 + o.val
      omega)
  · exact shapeCast_apply _ _ (ix2 (0 : Fin 1) o) (ix1 o) (by
      rw [Shape.rowMajor_val_one, Shape.rowMajor_val_two]
      show o.val = 0 * 2560 + o.val
      omega)

/-- THE RESULT after the run: the specification in the kernel's spelling, of the four arguments. -/
theorem result_eq (c : Dev nD) :
    Pipeline.afterTail₀ cfgs (dats m (outBlk m)) 0 (V0 m) [hostOps1] c main_v6
      = resultMul (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  rw [(Pipeline.withArrays_arr spec0 launch0.win.arr_inj c _ _ 4).trans (final_flat m c)]
  funext i
  obtain ⟨p, q, o, rfl⟩ : ∃ (p : Fin 32) (q : Fin 577) (o : Fin 2560), i = ix3 p q o := ⟨i 0, i 1, i 2, eq_ix3 i⟩
  have hrow : p.val * 577 + q.val < 18464 := by have := p.isLt; have := q.isLt; omega
  refine (shapeCast_apply (flat m c) shapeCasts_S18464x2560_S32x577x2560 (ix3 p q o)
    (ix2 (⟨p.val * 577 + q.val, hrow⟩ : Fin 18464) o) (by
      rw [Shape.rowMajor_val_two, Shape.rowMajor_val_three]
      show (p.val * 577 + q.val) * 2560 + o.val = (p.val * 577 + q.val) * 2560 + o.val
      rfl)).trans ?_
  exact flat_apply m c p q o hrow

end Cert.KernelIdeal.Result

end
-- ==== Proof.RefValue.lean ====
/-
  The reference computes the specification.

  Read one operation at a time, entry `(p, q, o)` of the reference's result is: the row maximum of |x[p,q,·]| from
  -∞, clamped below and divided by 127 (the row scale); every x[p,q,k] divided by it, rounded straight through;
  the sum over k of those against the weight row o read as reals; times the scale, times a[o], plus b[o].
-/
import proofs.«172809_j14302241096002_2_alg».proof.Proof.Gen.ReferenceIdeal.Read
import proofs.«172809_j14302241096002_2_alg».proof.Proof.LinearSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RowQuant Cert.LinearSpec

/-- The reduction over the last axis of the activations. -/
theorem reduces_last : S32x577x1024.Reduces [2] S32x577 := by decide

/-- The reference's row maximum at `(p, q)` is the row's largest absolute value. -/
theorem rowMax_apply (x0 : S32x577x1024.Idx → EReal) (p : Fin 32) (q : Fin 577) :
    val_main_v1 (F := Ideal) x0 (ix2 p q) = rowAbsMax fun k : Fin 1024 => x0 (ix3 p q k) := by
  unfold val_main_v1
  refine (Host.reduce_eq_fold_single (FloatOps.maximumf (F := Ideal) (φ := .f32))
    (val_main_v0 (F := Ideal) x0 : S32x577x1024.Idx → EReal) (val_main_cst (F := Ideal) : S_.Idx → EReal)
    reducesTo_S32x577x1024_S32x577_d2 reduces_last h_S_ (ix2 p q)).trans ?_
  unfold rowAbsMax
  refine congrArg (fun f => Finset.fold max (Ideal.ofBits .f32 0xFF800000#32) f Finset.univ) (funext fun k => ?_)
  show max (x0 (reduces_last.lift (ix2 p q) k)) (-(x0 (reduces_last.lift (ix2 p q) k))) = _
  rw [show reduces_last.lift (ix2 p q) k = ix3 p q k from
    funext fun a => Fin.ext (by match a with | ⟨0, _⟩ => rfl | ⟨1, _⟩ => rfl | ⟨2, _⟩ => rfl)]
  rfl

/-- The reference's column of scales at `(p, q, 0)` is the scale of row `(p, q)`. -/
theorem scale_apply (x0 : S32x577x1024.Idx → EReal) (p : Fin 32) (q : Fin 577) :
    val_main_v6 (F := Ideal) x0 (ix3 p q (0 : Fin 1)) = rowScale fun k : Fin 1024 => x0 (ix3 p q k) := by
  rw [val_main_v6_apply, val_main_v4_apply, val_main_v2_apply, val_main_v3_apply, val_main_cst_0_apply,
    val_main_v5_apply, val_main_cst_1_apply]
  rw [show idx_main_v2 (ix3 p q (0 : Fin 1)) = ix2 p q from
    funext fun a => Fin.ext (by match a with | ⟨0, _⟩ => rfl | ⟨1, _⟩ => rfl), rowMax_apply]
  rfl

/-- One quantized entry of the reference at `(p, q, k)`. -/
theorem quant_apply (x0 : S32x577x1024.Idx → EReal) (p : Fin 32) (q : Fin 577) (k : Fin 1024) :
    val_main_v11 (F := Ideal) x0 (ix3 p q k) = quantDiv (fun k : Fin 1024 => x0 (ix3 p q k)) k := by
  have h8 : val_main_v8 (F := Ideal) x0 (ix3 p q k)
      = Ideal.div (x0 (ix3 p q k)) (rowScale fun k : Fin 1024 => x0 (ix3 p q k)) := by
    rw [val_main_v8_apply, val_main_v7_apply,
      show idx_main_v7 (ix3 p q k) = ix3 p q (0 : Fin 1) from
        funext fun a => Fin.ext (by match a with | ⟨0, _⟩ => rfl | ⟨1, _⟩ => rfl | ⟨2, _⟩ => rfl), scale_apply]
    rfl
  rw [val_main_v11_apply, val_main_v10_apply, val_main_v9_apply, h8]
  rfl

/-- The reference's result is the specification in the reference's spelling. -/
theorem ref_eq (x0 : S32x577x1024.Idx → EReal) (x1 : S2560x1024.Idx → BitVec 32) (x2 x3 : S2560.Idx → EReal) :
    val_main_v21 (F := Ideal) x0 x1 x2 x3 = resultDiv x0 x1 x2 x3 := by
  funext i
  obtain ⟨p, q, o, rfl⟩ : ∃ (p : Fin 32) (q : Fin 577) (o : Fin 2560), i = ix3 p q o := ⟨i 0, i 1, i 2, eq_ix3 i⟩
  rw [val_main_v21_apply, val_main_v18_apply, val_main_v15_apply, val_main_v13_apply, val_main_v14_apply,
    val_main_v17_apply, val_main_v16_apply, val_main_v20_apply, val_main_v19_apply]
  rw [show idx_main_v14 (ix3 p q o) = ix3 p q (0 : Fin 1) from
    funext fun a => Fin.ext (by match a with | ⟨0, _⟩ => rfl | ⟨1, _⟩ => rfl | ⟨2, _⟩ => rfl), scale_apply]
  unfold resultDiv entryDiv
  refine congrArg₂ (fun y z : EReal => y + z) (congrArg₂ (fun y z : EReal => y * z) (congrArg₂ (fun y z : EReal => y * z) ?_ rfl) ?_) ?_
  · refine Finset.sum_congr rfl fun k _ => ?_
    rw [show lidx_main_v13 (ix3 p q o) k = ix3 p q k from
        funext fun a => Fin.ext (by match a with | ⟨0, _⟩ => rfl | ⟨1, _⟩ => rfl | ⟨2, _⟩ => rfl),
      show ridx_main_v13 (ix3 p q o) k = ix2 o k from
        funext fun a => Fin.ext (by match a with | ⟨0, _⟩ => rfl | ⟨1, _⟩ => rfl),
      quant_apply, val_main_v12_apply]
    rfl
  · exact congrArg x2 (funext fun a => Fin.ext (by match a with | ⟨0, _⟩ => rfl))
  · exact congrArg x3 (funext fun a => Fin.ext (by match a with | ⟨0, _⟩ => rfl))

end Cert.ReferenceIdeal.RefValue

end
-- ==== Proof.FiniteInputs.lean ====
/-
  What the precondition gives: every activation is a real number.

  The precondition is the conjunction of three "all entries have absolute value below +∞", one per float
  argument.  On the extended reals |x| < +∞ holds exactly when x is neither infinity.  Only the activations'
  conjunct is used.
-/
import proofs.«172809_j14302241096002_2_alg».proof.Pre_finite_inputs
import proofs.«172809_j14302241096002_2_alg».proof.Proof.LibRealValued
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx Cert.RealValued

instance : Subsingleton S_.Idx := ⟨fun a b => funext fun d => d.elim0⟩

/-- The word 0x7F800000 is +∞. -/
theorem posInf_f32 : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

variable [Cert.Pre_finite_inputs.Facts]

/-- Under the precondition every activation is a real number. -/
theorem activations_real (x0 : FVec Ideal S32x577x1024 .f32) (x1 : IVec S2560x1024 32) (x2 x3 : FVec Ideal S2560 .f32)
    (h : Cert.Pre_finite_inputs.fn (F := Ideal) x0 x1 x2 x3 = fun _ => 1#1) (i : S32x577x1024.Idx) : IsReal (x0 i) := by
  have h0 := congrFun h ix0
  dsimp only [Cert.Pre_finite_inputs.fn] at h0
  have h1 : IntOp.andi (IntOp.andi _ _) _ = 1#1 := h0
  obtain ⟨h2, -⟩ := IntOp.andi_eq_one.mp h1
  obtain ⟨h3, -⟩ := IntOp.andi_eq_one.mp h2
  have hx := Host.reduce_andi_all _ _ _ _ _ h3 i
  have hx' : Ideal.cmp .olt (max (x0 i) (-(x0 i))) (Ideal.ofBits .f32 0x7F800000#32) = 1#1 := hx
  rw [posInf_f32] at hx'
  refine isReal_of_abs_lt_top _ ?_
  by_contra hn
  unfold Ideal.cmp at hx'
  simp only [decide_eq_false hn] at hx'
  exact absurd hx' (by decide)

end Cert.Pre_finite_inputs.Decode

end
-- ==== Proof.lean ====
/-
  A linear layer with per-row int8-style quantization of the activations, as a kernel and as its reference.

  Both compute, for activations x : [32, 577, 1024], integer weights w : [2560, 1024], column scales a and bias b,
  the entry (p, q, o) = (Σ_k round(x[p,q,k] / s) · w[o,k]) · s · a[o] + b[o], where s = max(max_k |x[p,q,k]|, 1e-8) / 127
  is the scale of row (p, q).  The kernel flattens (p, q) to 18464 rows, handles 512 rows per grid point (the last
  point only 32), writes the quotient as a product with the reciprocal of s, and multiplies against the weight cast
  to a narrower float format and transposed.  The reference divides, and rounds "straight through":
  v + (round v − v).

  The frames of the two kernel programs come from the body's triple and a pipeline obligation that says nothing of
  the output buffer; the reference's frame from its run.  No rewrite was applied when the kernel was idealized.
  For the values: at the extended reals a change of float format is the identity and an integer reads as itself,
  so the kernel's result is the specification in its spelling (`resultMul`) for ANY inputs; the reference's
  is the specification in its spelling (`resultDiv`); and the two spellings agree once every activation is a real
  number, which is what the precondition says: then s is a positive real, x · (1/s) = x / s, and
  v + (r − v) = r because v is real.
-/
import proofs.«172809_j14302241096002_2_alg».proof.Defs
import proofs.«172809_j14302241096002_2_alg».proof.Proof.Gen.Kernel
import proofs.«172809_j14302241096002_2_alg».proof.Proof.Gen.KernelIdeal
import proofs.«172809_j14302241096002_2_alg».proof.Proof.Gen.ReferenceIdeal
import proofs.«172809_j14302241096002_2_alg».proof.Proof.Gen.Pre_finite_inputs
import proofs.«172809_j14302241096002_2_alg».proof.Proof.Gen.ReferenceIdeal.Run
import proofs.«172809_j14302241096002_2_alg».proof.Proof.Gen.ReferenceIdeal.Read
import proofs.«172809_j14302241096002_2_alg».proof.Proof.KernelBody
import proofs.«172809_j14302241096002_2_alg».proof.Proof.KernelIdealBody
import proofs.«172809_j14302241096002_2_alg».proof.Proof.KernelResult
import proofs.«172809_j14302241096002_2_alg».proof.Proof.RefValue
import proofs.«172809_j14302241096002_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the specification in the kernel's spelling, of the kernel's arguments: the
    kernel's by its value, the reference's because its own spelling agrees on real-valued activations. -/
theorem algebraic : Cert.algebraic_KernelIdeal_ReferenceIdeal := by
  intro m ρ m' ρ' hpre hagree
  refine ⟨fun c => Cert.LinearSpec.resultMul
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Result.run_main m ρ)
    · exact ((h c).2 Cert.KernelIdeal.main_v6 (Pipeline.mem_restRefs_of Cert.KernelIdeal.main_v6 (by decide) (by decide))).trans
        (Cert.KernelIdeal.Result.result_eq m c)
    · exact ((h c).2 Cert.KernelIdeal.main_arg0 (Pipeline.mem_restRefs_of Cert.KernelIdeal.main_arg0 (by decide) (by decide))).trans
        (Cert.KernelIdeal.Gen.W_main_arg0 m _ c)
    · exact ((h c).2 Cert.KernelIdeal.main_arg1 (Pipeline.mem_restRefs_of Cert.KernelIdeal.main_arg1 (by decide) (by decide))).trans
        (Cert.KernelIdeal.Gen.W_main_arg1 m _ c)
    · exact ((h c).2 Cert.KernelIdeal.main_arg2 (Pipeline.mem_restRefs_of Cert.KernelIdeal.main_arg2 (by decide) (by decide))).trans
        (Cert.KernelIdeal.Gen.W_main_arg2 m _ c)
    · exact ((h c).2 Cert.KernelIdeal.main_arg3 (Pipeline.mem_restRefs_of Cert.KernelIdeal.main_arg3 (by decide) (by decide))).trans
        (Cert.KernelIdeal.Gen.W_main_arg3 m _ c)
  · refine (θ_run Cert.ReferenceIdeal.defs _ _).mono (fun r h c => ⟨?_, (h c).2⟩)
      (Cert.ReferenceIdeal.Value.run (F := Ideal) m' ρ')
    rw [(h c).1, Cert.ReferenceIdeal.Read.val_main_v21_eq, Cert.ReferenceIdeal.RefValue.ref_eq,
      (hagree c).1, (hagree c).2.1, (hagree c).2.2.1, (hagree c).2.2.2]
    exact (Cert.LinearSpec.resultMul_eq_resultDiv _ _ _ _
      (Cert.Pre_finite_inputs.Decode.activations_real _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
